-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg7 : FVec F S64 .f32) (main_arg8 : FVec F S64x6 .f32) (main_arg9 : FVec F S6 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x6 .f32 := Host.absf main_arg8
  let main_cst_8 : FVec F S_ .f32 := constant S_ .f32 0x7F800000#32
  let main_v25 : FVec F S64x6 .f32 := broadcastInDim S64x6 ![] bcast_S_S64x6 main_cst_8
  let main_v26 : IVec S64x6 1 := cmpf .olt main_v24 main_v25
  let main_c_9 : IVec S_ 1 := constantI S_ 1 1#1
  let main_v27 : IVec S_ 1 := (fun x v => Host.reduce IntOp.andi x v reducesTo_S64x6_S_d0_1 h_S_) main_v26 main_c_9
  let main_v28 : IVec S_ 1 := andi main_v23 main_v27
  let main_v29 : FVec F S6 .f32 := Host.absf main_arg9
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : IVec S100000 32) (main_arg1 : IVec S2x600000 32) (main_arg2 : IVec S100000 32) (main_arg3 : FVec F S100000x300 .f32) (main_arg4 : FVec F S300x128 .f32) (main_arg5 : FVec F S128 .f32) (main_arg6 : FVec F S128x64 .f32) (main_arg7 : FVec F S64 .f32) (main_arg8 : FVec F S64x6 .f32) (main_arg9 : FVec F S6 .f32) : IVec S_ 1 :=
  let main_v0 : FVec F S100000x300 .f32 := Host.absf main_arg3
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x128 .f32 := Host.absf main_arg4
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_arg9 main_v13 main_v16
-- ==== Kernel.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S5000x300 : Shape := ⟨2, ![5000, 300]⟩
abbrev S5000x128 : Shape := ⟨2, ![5000, 128]⟩
abbrev S100000x1 : Shape := ⟨2, ![100000, 1]⟩
abbrev S700000x128 : Shape := ⟨2, ![700000, 128]⟩
abbrev S1x128 : Shape := ⟨2, ![1, 128]⟩
abbrev S100000x64 : Shape := ⟨2, ![100000, 64]⟩
abbrev S5000x64 : Shape := ⟨2, ![5000, 64]⟩
abbrev S700000x64 : Shape := ⟨2, ![700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1x6 : Shape := ⟨2, ![1, 6]⟩
abbrev S256x6 : Shape := ⟨2, ![256, 6]⟩

abbrev nBuf : Space → Nat
  | .hbm => 121
  | .vmem => 15
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S100000, .i32⟩
  | .hbm, ⟨3, _⟩ => ⟨S100000x300, .f32⟩
  | .hbm, ⟨4, _⟩ => ⟨S300x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x6, .f32⟩
  | .hbm, ⟨9, _⟩ => ⟨S6, .f32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S1x600000, .i32⟩
  | .hbm, ⟨15, _⟩ => ⟨S600000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S_, .i32⟩
  | .hbm, ⟨44, _⟩ => ⟨S700000, .i32⟩
  | .hbm, ⟨45, _⟩ => ⟨S700000, .i1⟩
  | .hbm, ⟨46, _⟩ => ⟨S_, .i32⟩
  | .hbm, ⟨47, _⟩ => ⟨S700000, .i32⟩
  | .hbm, ⟨48, _⟩ => ⟨S700000, .i32⟩
  | .hbm, ⟨49, _⟩ => ⟨S700000, .i32⟩
  | .hbm, ⟨50, _⟩ => ⟨S700000x1, .i32⟩
  | .hbm, ⟨51, _⟩ => ⟨S700000, .f32⟩
  | .hbm, ⟨52, _⟩ => ⟨S700000, .f32⟩
  | .hbm, ⟨53, _⟩ => ⟨S100000x128, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S100000x128, .f32⟩
  | .hbm, ⟨63, _⟩ => ⟨S_, .i32⟩
  | .hbm, ⟨64, _⟩ => ⟨S700000, .i32⟩
  | .hbm, ⟨65, _⟩ => ⟨S700000, .i1⟩
  | .hbm, ⟨66, _⟩ => ⟨S_, .i32⟩
  | .hbm, ⟨67, _⟩ => ⟨S700000, .i32⟩
  | .hbm, ⟨68, _⟩ => ⟨S700000, .i32⟩
  | .hbm, ⟨69, _⟩ => ⟨S700000, .i32⟩
  | .hbm, ⟨70, _⟩ => ⟨S700000x1, .i32⟩
  | .hbm, ⟨71, _⟩ => ⟨S700000x128, .f32⟩
  | .hbm, ⟨72, _⟩ => ⟨S700000x1, .f32⟩
  | .hbm, ⟨73, _⟩ => ⟨S700000x128, .f32⟩
  | .hbm, ⟨74, _⟩ => ⟨S700000x128, .f32⟩
  | .hbm, ⟨75, _⟩ => ⟨S_, .f32⟩
  | .hbm, ⟨76, _⟩ => ⟨S100000x128, .f32⟩
  | .hbm, ⟨77, _⟩ => ⟨S700000x1, .i32⟩
  | .hbm, ⟨78, _⟩ => ⟨S100000x128, .f32⟩
  | .hbm, ⟨79, _⟩ => ⟨S1x128, .f32⟩
  | .hbm, ⟨80, _⟩ => ⟨S100000x64, .f32⟩
  | .hbm, ⟨81, _⟩ => ⟨S_, .i32⟩
  | .hbm, ⟨82, _⟩ => ⟨S700000, .i32⟩
  | .hbm, ⟨83, _⟩ => ⟨S700000, .i1⟩
  | .hbm, ⟨84, _⟩ => ⟨S_, .i32⟩
  | .hbm, ⟨85, _⟩ => ⟨S700000, .i32⟩
  | .hbm, ⟨86, _⟩ => ⟨S700000, .i32⟩
  | .hbm, ⟨87, _⟩ => ⟨S700000, .i32⟩
  | .hbm, ⟨88, _⟩ => ⟨S700000x1, .i32⟩
  | .hbm, ⟨89, _⟩ => ⟨S700000x64, .f32⟩
  | .hbm, ⟨90, _⟩ => ⟨S700000x1, .f32⟩
  | .hbm, ⟨91, _⟩ => ⟨S700000x64, .f32⟩
  | .hbm, ⟨92, _⟩ => ⟨S700000x64, .f32⟩
  | .hbm, ⟨93, _⟩ => ⟨S_, .f32⟩
  | .hbm, ⟨94, _⟩ => ⟨S100000x64, .f32⟩
  | .hbm, ⟨95, _⟩ => ⟨S700000x1, .i32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S256x64, .f32⟩
  | .hbm, ⟨105, _⟩ => ⟨S100000x1, .i32⟩
  | .hbm, ⟨106, _⟩ => ⟨S256x64, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S256, .f32⟩
  | .hbm, ⟨111, _⟩ => ⟨S100000x1, .i32⟩
  | .hbm, ⟨112, _⟩ => ⟨S256, .f32⟩
  | .hbm, ⟨113, _⟩ => ⟨S_, .f32⟩
  | .hbm, ⟨114, _⟩ => ⟨S256, .f32⟩
  | .hbm, ⟨115, _⟩ => ⟨S256, .f32⟩
  | .hbm, ⟨116, _⟩ => ⟨S256x1, .f32⟩
  | .hbm, ⟨117, _⟩ => ⟨S256x64, .f32⟩
  | .hbm, ⟨118, _⟩ => ⟨S256x64, .f32⟩
  | .hbm, ⟨119, _⟩ => ⟨S1x6, .f32⟩
  | .hbm, ⟨120, _⟩ => ⟨S256x6, .f32⟩
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S256x64, .f32⟩
  | .local _ .vmem, ⟨12, _⟩ => ⟨S64x6, .f32⟩
  | .local _ .vmem, ⟨13, _⟩ => ⟨S1x6, .f32⟩
  | .local _ .vmem, ⟨14, _⟩ => ⟨S256x6, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S5000x128_S5000x128_0_0 : ∀ a, (![0, 0] : Fin 2 → Nat) a + S5000x128.size a ≤ S5000x128.size a
  h_S5000x128 : 0 < S5000x128.numel
  bcast_S100000_S100000x1_0 : S100000.BroadcastsInDim S100000x1 (![0] : Fin 1 → Fin S100000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S6_S1x6 : S6.ShapeCasts S1x6
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S256x6 : S1x6.Broadcasts S256x6
  inb_S256x6_S256x6_0_0 : ∀ a, (![0, 0] : Fin 2 → Nat) a + S256x6.size a ≤ S256x6.size a
  h_S256x6 : 0 < S256x6.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x300_S300x128_S5000x128_1_0_0_1_n_n_wf : DotDims.WF S5000x300 S300x128 S5000x128 [1] [0] [0] [1] [] []
  gather_S100000x128_S100000x1_S100000x128_1_0_n_n_0_1_1128_wf : GatherDims.WF S100000x128 S100000x1 S100000x128 [1] [0] [] [0] [] 1 ![1, 128]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x6_S256x6_1_0_0_1_n_n_wf : DotDims.WF S256x64 S64x6 S256x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x6.size a ≤ S64x6.size a
  hwx2_1 : ∀ i : grid2.Coords, EltTy.bits .f32 = 32 ∨ (Rect.block (s := S64x6) S64x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x6.size a ≤ S1x6.size a
  hwx2_2 : ∀ i : grid2.Coords, EltTy.bits .f32 = 32 ∨ (Rect.block (s := S1x6) S1x6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x6.size a ≤ S256x6.size a
  hwx2_3 : ∀ i : grid2.Coords, EltTy.bits .f32 = 32 ∨ (Rect.block (s := S256x6) S256x6.size (cc2_transform_3 i) (hinb2_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

abbrev win0_0 : Pipeline.Window sig grid0 :=
  Pipeline.Window.ofSpec (Memref.whole main_arg3) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v83) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x6.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S256x6.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x128 : Shape := ⟨2, ![100000, 128]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x6 : Shape := ⟨2, ![256, 6]⟩
abbrev S1x6 : Shape := ⟨2, ![1, 6]⟩

abbrev nBuf : Space → Nat
  | .hbm => 131
  | .vmem => 0
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S100000x300, .f32⟩
  | 4 => ⟨S300x128, .f32⟩
  | 5 => ⟨S128, .f32⟩
  | 6 => ⟨S128x64, .f32⟩
  | 7 => ⟨S64, .f32⟩
  | 8 => ⟨S64x6, .f32⟩
  | 9 => ⟨S6, .f32⟩
  | 10 => ⟨S100000, .i32⟩
  | 11 => ⟨S1x600000, .i32⟩
  | 12 => ⟨S600000, .i32⟩
  | 13 => ⟨S700000, .i32⟩
  | 14 => ⟨S1x600000, .i32⟩
  | 15 => ⟨S600000, .i32⟩
  | 16 => ⟨S700000, .i32⟩
  | 17 => ⟨S_, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S700000, .i32⟩
  | 36 => ⟨S700000, .i1⟩
  | 37 => ⟨S_, .i32⟩
  | 38 => ⟨S700000, .i32⟩
  | 39 => ⟨S700000, .i32⟩
  | 40 => ⟨S700000, .i32⟩
  | 41 => ⟨S700000x1, .i32⟩
  | 42 => ⟨S700000, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000, .f32⟩
  | 52 => ⟨S700000, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x300, .f32⟩
  | 62 => ⟨S100000x128, .f32⟩
  | 63 => ⟨S_, .i32⟩
  | 64 => ⟨S700000, .i32⟩
  | 65 => ⟨S700000, .i1⟩
  | 66 => ⟨S_, .i32⟩
  | 67 => ⟨S700000, .i32⟩
  | 68 => ⟨S700000, .i32⟩
  | 69 => ⟨S700000, .i32⟩
  | 70 => ⟨S700000x1, .i32⟩
  | 71 => ⟨S700000x128, .f32⟩
  | 72 => ⟨S700000x1, .f32⟩
  | 73 => ⟨S700000x128, .f32⟩
  | 74 => ⟨S700000x128, .f32⟩
  | 75 => ⟨S_, .f32⟩
  | 76 => ⟨S100000x128, .f32⟩
  | 77 => ⟨S700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x64, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000x64, .f32⟩
  | 95 => ⟨S700000x1, .f32⟩
  | 96 => ⟨S700000x64, .f32⟩
  | 97 => ⟨S700000x64, .f32⟩
  | 98 => ⟨S_, .f32⟩
  | 99 => ⟨S100000x64, .f32⟩
  | 100 => ⟨S700000x1, .i32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S256x64, .f32⟩
  | 110 => ⟨S100000x1, .i32⟩
  | 111 => ⟨S256x64, .f32⟩
  | 112 => ⟨S_, .f32⟩
  | 113 => ⟨S100000, .f32⟩
  | 114 => ⟨S_, .f32⟩
  | 115 => ⟨S256, .f32⟩
  | 116 => ⟨S100000x1, .i32⟩
  | 117 => ⟨S256, .f32⟩
  | 118 => ⟨S_, .f32⟩
  | 119 => ⟨S256, .f32⟩
  | 120 => ⟨S256, .f32⟩
  | 121 => ⟨S256x1, .f32⟩
  | 122 => ⟨S256x64, .f32⟩
  | 123 => ⟨S256x64, .f32⟩
  | 124 => ⟨S256x6, .f32⟩
  | 125 => ⟨S1x6, .f32⟩
  | 126 => ⟨S256x6, .f32⟩
  | 127 => ⟨S256x6, .f32⟩
  | _ => ⟨S100000, .i32⟩

abbrev hbmTy0_1 (i : Nat) : BufTy := match i % 128 with
  | 0 => ⟨S_, .f32⟩
  | 1 => ⟨S256x6, .f32⟩
  | 2 => ⟨S256x6, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call2_cst : Ref sig .tc := ⟨.hbm, 105, rfl⟩
abbrev main_call2_v0 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S100000_S100000x1_0 : S100000.BroadcastsInDim S100000x1 (![0] : Fin 1 → Fin S100000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  bcast_S_S256x6 : S_.BroadcastsInDim S256x6 (![] : Fin 0 → Fin S256x6.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x300_S100000x1_S100000x300_1_0_n_n_0_1_1300_wf : GatherDims.WF S100000x300 S100000x1 S100000x300 [1] [0] [] [0] [] 1 ![1, 300]
  dot_S100000x300_S300x128_S100000x128_1_0_0_1_n_n_wf : DotDims.WF S100000x300 S300x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x6_S256x6_1_0_0_1_n_n_wf : DotDims.WF S256x64 S64x6 S256x6 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x300_S100000x1_S100000x300_1_0_n_n_0_1_1300 : GatherDims S100000x300 S100000x1 S100000x300 where
  offsetDims := [1]
  collapsedSliceDims := [0]
  operandBatchingDims := []
  startIndicesBatchingDims := []
  startIndexMap := [0]
  indexVectorDim := 1
  sliceSizes := ![1, 300]
  wf := gather_S100000x300_S100000x1_S100000x300_1_0_n_n_0_1_1300_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

class Facts : Prop extends Facts₀ where

variable [Facts]
-- ==== Proof.Stage.lean ====
/-
  The network both programs compute, stage by stage, as pure functions of arrays.

  A graph of 100000 nodes and 600000 directed edges gets a self-loop at every node (700000 edges in all). Every edge
  (source `row e`, target `col e`) carries the weight `norm e = dinv (row e) · dinv (col e)`, where `dinv v` is the inverse
  square root of the in-degree of `v` (zero where the degree is zero). One round of message passing sends each node's
  feature row along its outgoing edges, scales it by the edge weight, and adds the rows that arrive at each node. The
  network embeds the nodes by a table lookup followed by a linear map, passes messages, adds a bias and clips at zero,
  applies a second linear map, passes messages again, adds a bias and clips at zero, averages the node rows of every
  graph of the batch (the sum divided by the count, the count taken as at least one), and ends in a linear map, a bias
  and a clip at zero. A negative index counts from the end of its axis, as in the source.
-/
import proofs.«133287_j24592982737431_2_alg».proof.Proof.Gen.ReferenceIdeal
import Idealize.ShloMosaic.PureOps.Ideal

noncomputable section

namespace Cert.Stage

open Cert.ReferenceIdeal Cert.ReferenceIdeal.Gen Idealize.ShloMosaic

variable {F : FTy → Type} [FloatOps F]

/-- The edges' targets: the second row of the edge list, then every node once (the self-loops). -/
def colOf (ei : (⟨S2x600000, .i32⟩ : BufTy).Contents (Elt F)) : (⟨S700000, .i32⟩ : BufTy).Contents (Elt F) :=
  concatenate S700000 0 [⟨S600000, (shapeCast _ (extractStridedSlice S1x600000 ![1, 0] ei slices_S2x600000_S1x600000_1_0) shapeCasts_S1x600000_S600000)⟩, ⟨S100000, (iotaInDim S100000 32 0)⟩] concatenates_S600000_S100000_S700000_d0

/-- The edges' sources: the first row of the edge list, then every node once. -/
def rowOf (ei : (⟨S2x600000, .i32⟩ : BufTy).Contents (Elt F)) : (⟨S700000, .i32⟩ : BufTy).Contents (Elt F) :=
  concatenate S700000 0 [⟨S600000, (shapeCast _ (extractStridedSlice S1x600000 ![0, 0] ei slices_S2x600000_S1x600000_0_0) shapeCasts_S1x600000_S600000)⟩, ⟨S100000, (iotaInDim S100000 32 0)⟩] concatenates_S600000_S100000_S700000_d0

/-- A list of 700000 node indices as a column of start indices, a negative one counted from the end of the node axis. -/
def wrapEdges (r : (⟨S700000, .i32⟩ : BufTy).Contents (Elt F)) : (⟨S700000x1, .i32⟩ : BufTy).Contents (Elt F) :=
  broadcastInDim S700000x1 ![0] bcast_S700000_S700000x1_0 (select (cmpi .slt r (broadcastInDim S700000 ![] bcast_S_S700000 (constantI S_ 32 0#32))) (addi r (broadcastInDim S700000 ![] bcast_S_S700000 (constantI S_ 32 100000#32))) r)

/-- The same for the 100000 table indices of the nodes. -/
def wrapNodes (x : (⟨S100000, .i32⟩ : BufTy).Contents (Elt F)) : (⟨S100000x1, .i32⟩ : BufTy).Contents (Elt F) :=
  broadcastInDim S100000x1 ![0] bcast_S100000_S100000x1_0 (select (cmpi .slt x (broadcastInDim S100000 ![] bcast_S_S100000 (constantI S_ 32 0#32))) (addi x (broadcastInDim S100000 ![] bcast_S_S100000 (constantI S_ 32 100000#32))) x)

/-- The in-degree of every node: one unit added at the target of every edge. -/
def degOf (col : (⟨S700000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 col) (broadcastInDim S700000 ![] bcast_S_S700000 (constant S_ .f32 0x3F800000#32))

/-- The inverse square root of the degree (taken as at least one), and zero where the degree is not positive. -/
def dinvOf (col : (⟨S700000, .i32⟩ : BufTy).Contents (Elt F)) : (⟨S100000, .f32⟩ : BufTy).Contents (Elt F) :=
  select (cmpf (F := F) .ogt (degOf col) (broadcastInDim S100000 ![] bcast_S_S100000 (constant S_ .f32 0x00000000#32))) (Host.rsqrt (maximumf (degOf col) (broadcastInDim S100000 ![] bcast_S_S100000 (constant S_ .f32 0x3F800000#32)))) (broadcastInDim S100000 ![] bcast_S_S100000 (id (constant S_ .f32 0x00000000#32)))

/-- The weight of every edge: the product of the two end nodes' inverse square root degrees. -/
def normOf (row col : (⟨S700000, .i32⟩ : BufTy).Contents (Elt F)) : (⟨S700000, .f32⟩ : BufTy).Contents (Elt F) :=
  mulf (Host.gather gather_S100000_S700000x1_S700000_n_0_n_n_0_1_1 (dinvOf (F := F) col) (wrapEdges (F := F) row)) (Host.gather gather_S100000_S700000x1_S700000_n_0_n_n_0_1_1 (dinvOf (F := F) col) (wrapEdges (F := F) col))

/-- One round of message passing on rows of 128 features. -/
def pass128 (row col : (⟨S700000, .i32⟩ : BufTy).Contents (Elt F)) (norm : (⟨S700000, .f32⟩ : BufTy).Contents (Elt F)) (h : (⟨S100000x128, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 col) (mulf (Host.gather gather_S100000x128_S700000x1_S700000x128_1_0_n_n_0_1_1128 h (wrapEdges (F := F) row)) (broadcastInDim S700000x128 ![0, 1] bcast_S700000x1_S700000x128_0_1 (broadcastInDim S700000x1 ![0] bcast_S700000_S700000x1_0 norm)))

/-- One round of message passing on rows of 64 features. -/
def pass64 (row col : (⟨S700000, .i32⟩ : BufTy).Contents (Elt F)) (norm : (⟨S700000, .f32⟩ : BufTy).Contents (Elt F)) (h : (⟨S100000x64, .f32⟩ : BufTy).Contents (Elt F)) : (⟨S100000x64, .f32⟩ : BufTy).Contents (Elt F) :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 col) (mulf (Host.gather gather_S100000x64_S700000x1_S700000x64_1_0_n_n_0_1_164 h (wrapEdges (F := F) row)) (broadcastInDim S700000x64 ![0, 1] bcast_S700000x1_S700000x64_0_1 (broadcastInDim S700000x1 ![0] bcast_S700000_S700000x1_0 norm)))

/-- The first linear map applied to the whole table. -/
def project (emb : (⟨S100000x300, .f32⟩ : BufTy).Contents (Elt F)) (W1 : (⟨S300x128, .f32⟩ : BufTy).Contents (Elt F)) : (⟨S100000x128, .f32⟩ : BufTy).Contents (Elt F) :=
  Host.dotGeneral dot_S100000x300_S300x128_S100000x128_1_0_0_1_n_n none emb W1

/-- The embedding: the table's rows looked up at the nodes' indices, then the first linear map. -/
def embed (x : (⟨S100000, .i32⟩ : BufTy).Contents (Elt F)) (emb : (⟨S100000x300, .f32⟩ : BufTy).Contents (Elt F)) (W1 : (⟨S300x128, .f32⟩ : BufTy).Contents (Elt F)) : (⟨S100000x128, .f32⟩ : BufTy).Contents (Elt F) :=
  Host.dotGeneral dot_S100000x300_S300x128_S100000x128_1_0_0_1_n_n none (Host.gather gather_S100000x300_S100000x1_S100000x300_1_0_n_n_0_1_1300 emb (wrapNodes (F := F) x)) W1

/-- A bias row added to every node row of 128 features, the sum clipped at zero. -/
def biasRelu128 (a : (⟨S100000x128, .f32⟩ : BufTy).Contents (Elt F)) (brow : (⟨S1x128, .f32⟩ : BufTy).Contents (Elt F)) : (⟨S100000x128, .f32⟩ : BufTy).Contents (Elt F) :=
  maximumf (addf a (broadcastInDim S100000x128 ![0, 1] bcast_S1x128_S100000x128_0_1 brow)) (broadcastInDim S100000x128 ![] bcast_S_S100000x128 (constant S_ .f32 0x00000000#32))

/-- The second layer's linear map after the first layer's bias and clip. -/
def layer2 (a : (⟨S100000x128, .f32⟩ : BufTy).Contents (Elt F)) (brow : (⟨S1x128, .f32⟩ : BufTy).Contents (Elt F)) (W2 : (⟨S128x64, .f32⟩ : BufTy).Contents (Elt F)) : (⟨S100000x64, .f32⟩ : BufTy).Contents (Elt F) :=
  Host.dotGeneral dot_S100000x128_S128x64_S100000x64_1_0_0_1_n_n none (biasRelu128 a brow) W2

/-- The second layer's bias and clip, and the mean of the node rows of every graph of the batch. -/
def pool (a : (⟨S100000x64, .f32⟩ : BufTy).Contents (Elt F)) (b2 : (⟨S64, .f32⟩ : BufTy).Contents (Elt F)) (batch : (⟨S100000, .i32⟩ : BufTy).Contents (Elt F)) : (⟨S256x64, .f32⟩ : BufTy).Contents (Elt F) :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 batch) (maximumf (addf a (broadcastInDim S100000x64 ![0, 1] bcast_S1x64_S100000x64_0_1 (broadcastInDim S1x64 ![1] bcast_S64_S1x64_1 b2))) (broadcastInDim S100000x64 ![] bcast_S_S100000x64 (constant S_ .f32 0x00000000#32)))) (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 batch) (broadcastInDim S100000 ![] bcast_S_S100000 (constant S_ .f32 0x3F800000#32))) (broadcastInDim S256 ![] bcast_S_S256 (constant S_ .f32 0x3F800000#32)))))

/-- The last linear map, its bias row added to every graph's row, the sum clipped at zero. -/
def head (p : (⟨S256x64, .f32⟩ : BufTy).Contents (Elt F)) (Wout : (⟨S64x6, .f32⟩ : BufTy).Contents (Elt F)) (brow : (⟨S1x6, .f32⟩ : BufTy).Contents (Elt F)) : (⟨S256x6, .f32⟩ : BufTy).Contents (Elt F) :=
  maximumf (addf (Host.dotGeneral dot_S256x64_S64x6_S256x6_1_0_0_1_n_n none p Wout) (broadcastInDim S256x6 ![0, 1] bcast_S1x6_S256x6_0_1 brow)) (broadcastInDim S256x6 ![] bcast_S_S256x6 (constant S_ .f32 0x00000000#32))

/-- The whole network on the ten argument arrays. -/
def net (x : (⟨S100000, .i32⟩ : BufTy).Contents (Elt F)) (ei : (⟨S2x600000, .i32⟩ : BufTy).Contents (Elt F)) (batch : (⟨S100000, .i32⟩ : BufTy).Contents (Elt F)) (emb : (⟨S100000x300, .f32⟩ : BufTy).Contents (Elt F))
    (W1 : (⟨S300x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F))
    (Wout : (⟨S64x6, .f32⟩ : BufTy).Contents (Elt F)) (bout : (⟨S6, .f32⟩ : BufTy).Contents (Elt F)) : (⟨S256x6, .f32⟩ : BufTy).Contents (Elt F) :=
  head (pool (pass64 (rowOf (F := F) ei) (colOf (F := F) ei) (normOf (rowOf (F := F) ei) (colOf (F := F) ei))
      (layer2 (pass128 (rowOf (F := F) ei) (colOf (F := F) ei) (normOf (rowOf (F := F) ei) (colOf (F := F) ei)) (embed x emb W1))
        (broadcastInDim S1x128 ![1] bcast_S128_S1x128_1 b1) W2)) b2 batch)
    Wout (broadcastInDim S1x6 ![1] bcast_S6_S1x6_1 bout)

end Cert.Stage

end
-- ==== Proof.RefSide.lean ====
/-
  The reference program's result is the network of the stage functions on its ten arguments.

  The reference's run ends with its result buffer at the composed term of its operations; that term is the stage
  functions unfolded, operation for operation.
-/
import proofs.«133287_j24592982737431_2_alg».proof.Proof.RefRun
import proofs.«133287_j24592982737431_2_alg».proof.Proof.Stage

set_option maxRecDepth 16384

noncomputable section

namespace Cert.ReferenceIdeal.RefValue

open Cert.ReferenceIdeal Cert.ReferenceIdeal.Gen Idealize.ShloMosaic Idealize.ShloMosaic.TcCoe Idealize.SL.Sem

theorem result_eq_net (m : (ℓ : Loc nD τ sig) → Buf (Elt Ideal) ℓ) (c : Dev nD) :
    Cert.ReferenceIdeal.RunP.res_main_v91 (F := Ideal) m c
      = Cert.Stage.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.RunP.res_main_v91
  rfl

end Cert.ReferenceIdeal.RefValue

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.Stretch.lean ====
/-
  The host operations between the kernel regions, read as functions of the buffers they start from.

  The program's host operations come in three stretches: before the first region (the edge lists with their self-loops
  and the edge weights), between the first and the second (the lookup of the projected table at the nodes' indices and
  the first round of message passing), and between the second and the third (the second round, its bias and clip, and
  the mean over every graph). Each lemma is stated over arbitrary starting contents `v`: the buffer a stretch computes
  is the stage function of the buffers it reads, and a buffer no operation of the stretch writes keeps its contents.
-/
import proofs.«133287_j24592982737431_2_alg».proof.Proof.Gen.KernelIdeal.Launch
import proofs.«133287_j24592982737431_2_alg».proof.Proof.Stage
import proofs.«133287_j24592982737431_2_alg».proof.Proof.LibFoldRead
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable (v : Valuation τ sig (Elt Ideal))

/-! ## Before the first region -/

/-! The first line of operations: the edge lists, the degrees and their inverse square roots. -/

theorem lists_row : StableHlo.after hostOps0 v (Proc.devRef .tc main_v3) = Cert.Stage.rowOf (F := Ideal) (v (Proc.devRef .tc main_arg1)) := by
  fold_results; try rfl

theorem lists_col : StableHlo.after hostOps0 v (Proc.devRef .tc main_v6) = Cert.Stage.colOf (F := Ideal) (v (Proc.devRef .tc main_arg1)) := by
  fold_results; try rfl

theorem lists_positive : StableHlo.after hostOps0 v (Proc.devRef .tc main_v12)
    = cmpf (F := Ideal) .ogt (Cert.Stage.degOf (F := Ideal) (Cert.Stage.colOf (F := Ideal) (v (Proc.devRef .tc main_arg1)))) (broadcastInDim S100000 ![] bcast_S_S100000 (constant S_ .f32 0x00000000#32)) := by
  fold_results; try rfl

theorem lists_rsqrt : StableHlo.after hostOps0 v (Proc.devRef .tc main_v15)
    = Host.rsqrt (F := Ideal) (φ := .f32) (maximumf (Cert.Stage.degOf (F := Ideal) (Cert.Stage.colOf (F := Ideal) (v (Proc.devRef .tc main_arg1)))) (broadcastInDim S100000 ![] bcast_S_S100000 (constant S_ .f32 0x3F800000#32))) := by
  fold_results; try rfl

theorem lists_zero : StableHlo.after hostOps0 v (Proc.devRef .tc main_cst_3) = (constant S_ .f32 0x00000000#32 : FVec Ideal S_ .f32) := by
  fold_results; try rfl

/-! The outlined choice: the inverse square root where the degree is positive, zero elsewhere. -/

theorem where_read : StableHlo.after hostOps0_1 v (Proc.devRef .tc main_v16)
    = select (v (Proc.devRef .tc main_v12)) (v (Proc.devRef .tc main_v15)) (broadcastInDim S100000 ![] bcast_S_S100000 (id (v (Proc.devRef .tc main_cst_3)))) := by
  fold_results; try rfl

theorem where_keep_main_v3 : StableHlo.after hostOps0_1 v (Proc.devRef .tc main_v3) = v (Proc.devRef .tc main_v3) :=
  (StableHlo.after_of_forall_not_mem (b := (Proc.devRef .tc main_v3)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem where_keep_main_v6 : StableHlo.after hostOps0_1 v (Proc.devRef .tc main_v6) = v (Proc.devRef .tc main_v6) :=
  (StableHlo.after_of_forall_not_mem (b := (Proc.devRef .tc main_v6)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The third line: the two end nodes' values along every edge, multiplied. -/

theorem weights_read : StableHlo.after hostOps0_2 v (Proc.devRef .tc main_v31)
    = mulf (F := Ideal) (φ := .f32) (Host.gather gather_S100000_S700000x1_S700000_n_0_n_n_0_1_1 (v (Proc.devRef .tc main_v16)) (Cert.Stage.wrapEdges (F := Ideal) (v (Proc.devRef .tc main_v3))))
        (Host.gather gather_S100000_S700000x1_S700000_n_0_n_n_0_1_1 (v (Proc.devRef .tc main_v16)) (Cert.Stage.wrapEdges (F := Ideal) (v (Proc.devRef .tc main_v6)))) := by
  fold_results; try rfl

theorem weights_keep_main_v3 : StableHlo.after hostOps0_2 v (Proc.devRef .tc main_v3) = v (Proc.devRef .tc main_v3) :=
  (StableHlo.after_of_forall_not_mem (b := (Proc.devRef .tc main_v3)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem weights_keep_main_v6 : StableHlo.after hostOps0_2 v (Proc.devRef .tc main_v6) = v (Proc.devRef .tc main_v6) :=
  (StableHlo.after_of_forall_not_mem (b := (Proc.devRef .tc main_v6)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The three lines together. -/

theorem before_row : StableHlo.after hostOps0_2 (StableHlo.after hostOps0_1 (StableHlo.after hostOps0 v)) (Proc.devRef .tc main_v3) = Cert.Stage.rowOf (F := Ideal) (v (Proc.devRef .tc main_arg1)) :=
  (weights_keep_main_v3 _).trans ((where_keep_main_v3 _).trans (lists_row v))

theorem before_col : StableHlo.after hostOps0_2 (StableHlo.after hostOps0_1 (StableHlo.after hostOps0 v)) (Proc.devRef .tc main_v6) = Cert.Stage.colOf (F := Ideal) (v (Proc.devRef .tc main_arg1)) :=
  (weights_keep_main_v6 _).trans ((where_keep_main_v6 _).trans (lists_col v))

theorem before_norm : StableHlo.after hostOps0_2 (StableHlo.after hostOps0_1 (StableHlo.after hostOps0 v)) (Proc.devRef .tc main_v31)
    = Cert.Stage.normOf (F := Ideal) (Cert.Stage.rowOf (F := Ideal) (v (Proc.devRef .tc main_arg1))) (Cert.Stage.colOf (F := Ideal) (v (Proc.devRef .tc main_arg1))) := by
  refine (weights_read _).trans ?_
  rw [where_read, where_keep_main_v3, where_keep_main_v6, lists_positive, lists_rsqrt, lists_zero, lists_row, lists_col]
  rfl

theorem before_keep_main_arg0 : StableHlo.after hostOps0_2 (StableHlo.after hostOps0_1 (StableHlo.after hostOps0 v)) (Proc.devRef .tc main_arg0) = v (Proc.devRef .tc main_arg0) :=
  (StableHlo.after_of_forall_not_mem (b := (Proc.devRef .tc main_arg0)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg0)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg0)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg2 : StableHlo.after hostOps0_2 (StableHlo.after hostOps0_1 (StableHlo.after hostOps0 v)) (Proc.devRef .tc main_arg2) = v (Proc.devRef .tc main_arg2) :=
  (StableHlo.after_of_forall_not_mem (b := (Proc.devRef .tc main_arg2)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg2)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg2)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg3 : StableHlo.after hostOps0_2 (StableHlo.after hostOps0_1 (StableHlo.after hostOps0 v)) (Proc.devRef .tc main_arg3) = v (Proc.devRef .tc main_arg3) :=
  (StableHlo.after_of_forall_not_mem (b := (Proc.devRef .tc main_arg3)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg3)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg3)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg4 : StableHlo.after hostOps0_2 (StableHlo.after hostOps0_1 (StableHlo.after hostOps0 v)) (Proc.devRef .tc main_arg4) = v (Proc.devRef .tc main_arg4) :=
  (StableHlo.after_of_forall_not_mem (b := (Proc.devRef .tc main_arg4)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg4)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg4)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg5 : StableHlo.after hostOps0_2 (StableHlo.after hostOps0_1 (StableHlo.after hostOps0 v)) (Proc.devRef .tc main_arg5) = v (Proc.devRef .tc main_arg5) :=
  (StableHlo.after_of_forall_not_mem (b := (Proc.devRef .tc main_arg5)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg5)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg5)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg6 : StableHlo.after hostOps0_2 (StableHlo.after hostOps0_1 (StableHlo.after hostOps0 v)) (Proc.devRef .tc main_arg6) = v (Proc.devRef .tc main_arg6) :=
  (StableHlo.after_of_forall_not_mem (b := (Proc.devRef .tc main_arg6)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg6)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg6)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg7 : StableHlo.after hostOps0_2 (StableHlo.after hostOps0_1 (StableHlo.after hostOps0 v)) (Proc.devRef .tc main_arg7) = v (Proc.devRef .tc main_arg7) :=
  (StableHlo.after_of_forall_not_mem (b := (Proc.devRef .tc main_arg7)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg7)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg7)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg8 : StableHlo.after hostOps0_2 (StableHlo.after hostOps0_1 (StableHlo.after hostOps0 v)) (Proc.devRef .tc main_arg8) = v (Proc.devRef .tc main_arg8) :=
  (StableHlo.after_of_forall_not_mem (b := (Proc.devRef .tc main_arg8)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg8)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg8)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

theorem before_keep_main_arg9 : StableHlo.after hostOps0_2 (StableHlo.after hostOps0_1 (StableHlo.after hostOps0 v)) (Proc.devRef .tc main_arg9) = v (Proc.devRef .tc main_arg9) :=
  (StableHlo.after_of_forall_not_mem (b := (Proc.devRef .tc main_arg9)) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg9)) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg9)) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

/-! ## Between the first and the second region -/

/-- The projected table's rows at the nodes' indices, passed along the edges once. -/
theorem between_agg : StableHlo.after hostOps1 v (Proc.devRef .tc main_v52)
    = Cert.Stage.pass128 (F := Ideal) (v (Proc.devRef .tc main_v3)) (v (Proc.devRef .tc main_v6)) (v (Proc.devRef .tc main_v31))
        (Host.gather gather_S100000x128_S100000x1_S100000x128_1_0_n_n_0_1_1128 (v (Proc.devRef .tc main_v32)) (Cert.Stage.wrapNodes (F := Ideal) (v (Proc.devRef .tc main_arg0)))) := by
  fold_results; try rfl

/-- The first bias as one row. -/
theorem between_bias : StableHlo.after hostOps1 v (Proc.devRef .tc main_v53) = shapeCast S1x128 (v (Proc.devRef .tc main_arg5)) shapeCasts_S128_S1x128 := by
  fold_results; try rfl

theorem between_keep_main_arg2 : StableHlo.after hostOps1 v (Proc.devRef .tc main_arg2) = v (Proc.devRef .tc main_arg2) :=
  StableHlo.after_of_forall_not_mem (b := (Proc.devRef .tc main_arg2)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_arg6 : StableHlo.after hostOps1 v (Proc.devRef .tc main_arg6) = v (Proc.devRef .tc main_arg6) :=
  StableHlo.after_of_forall_not_mem (b := (Proc.devRef .tc main_arg6)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_arg7 : StableHlo.after hostOps1 v (Proc.devRef .tc main_arg7) = v (Proc.devRef .tc main_arg7) :=
  StableHlo.after_of_forall_not_mem (b := (Proc.devRef .tc main_arg7)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_arg8 : StableHlo.after hostOps1 v (Proc.devRef .tc main_arg8) = v (Proc.devRef .tc main_arg8) :=
  StableHlo.after_of_forall_not_mem (b := (Proc.devRef .tc main_arg8)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_arg9 : StableHlo.after hostOps1 v (Proc.devRef .tc main_arg9) = v (Proc.devRef .tc main_arg9) :=
  StableHlo.after_of_forall_not_mem (b := (Proc.devRef .tc main_arg9)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_v3 : StableHlo.after hostOps1 v (Proc.devRef .tc main_v3) = v (Proc.devRef .tc main_v3) :=
  StableHlo.after_of_forall_not_mem (b := (Proc.devRef .tc main_v3)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_v6 : StableHlo.after hostOps1 v (Proc.devRef .tc main_v6) = v (Proc.devRef .tc main_v6) :=
  StableHlo.after_of_forall_not_mem (b := (Proc.devRef .tc main_v6)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem between_keep_main_v31 : StableHlo.after hostOps1 v (Proc.devRef .tc main_v31) = v (Proc.devRef .tc main_v31) :=
  StableHlo.after_of_forall_not_mem (b := (Proc.devRef .tc main_v31)) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Between the second and the third region -/

/-! The second round of message passing and its bias. -/

theorem second_pass : StableHlo.after hostOps2 v (Proc.devRef .tc main_v70)
    = addf (F := Ideal) (φ := .f32) (Cert.Stage.pass64 (F := Ideal) (v (Proc.devRef .tc main_v3)) (v (Proc.devRef .tc main_v6)) (v (Proc.devRef .tc main_v31)) (v (Proc.devRef .tc main_v54)))
        (broadcastInDim S100000x64 ![0, 1] bcast_S1x64_S100000x64_0_1 (broadcastInDim S1x64 ![1] bcast_S64_S1x64_1 (v (Proc.devRef .tc main_arg7)))) := by
  fold_results; try rfl

theorem second_keep_main_arg2 : StableHlo.after hostOps2 v (Proc.devRef .tc main_arg2) = v (Proc.devRef .tc main_arg2) :=
  (StableHlo.after_of_forall_not_mem (b := (Proc.devRef .tc main_arg2)) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem second_keep_main_arg9 : StableHlo.after hostOps2 v (Proc.devRef .tc main_arg9) = v (Proc.devRef .tc main_arg9) :=
  (StableHlo.after_of_forall_not_mem (b := (Proc.devRef .tc main_arg9)) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The outlined clip at zero. -/

theorem relu_read : StableHlo.after hostOps2_1 v (Proc.devRef .tc main_v71)
    = maximumf (F := Ideal) (φ := .f32) (v (Proc.devRef .tc main_v70)) (broadcastInDim S100000x64 ![] bcast_S_S100000x64 (constant S_ .f32 0x00000000#32)) := by
  fold_results; try rfl

theorem relu_keep_main_arg2 : StableHlo.after hostOps2_1 v (Proc.devRef .tc main_arg2) = v (Proc.devRef .tc main_arg2) :=
  (StableHlo.after_of_forall_not_mem (b := (Proc.devRef .tc main_arg2)) _ _ (List.forall_iff_forall_mem.mp (by
      simp only [hostOps2_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem relu_keep_main_arg9 : StableHlo.after hostOps2_1 v (Proc.devRef .tc main_arg9) = v (Proc.devRef .tc main_arg9) :=
  (StableHlo.after_of_forall_not_mem (b := (Proc.devRef .tc main_arg9)) _ _ (List.forall_iff_forall_mem.mp (by
      simp only [hostOps2_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! The mean over every graph, and the last bias as one row. -/

theorem mean_read : StableHlo.after hostOps2_2 v (Proc.devRef .tc main_v83)
    = Host.divf (F := Ideal) (φ := .f32) (Host.scatterAdd scatter_S256x64_S100000x1_S100000x64_1_0_0_1 (broadcastInDim S256x64 ![] bcast_S_S256x64 (constant S_ .f32 0x00000000#32)) (broadcastInDim S100000x1 ![0] bcast_S100000_S100000x1_0 (v (Proc.devRef .tc main_arg2))) (v (Proc.devRef .tc main_v71)))
        (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 (v (Proc.devRef .tc main_arg2))) (broadcastInDim S100000 ![] bcast_S_S100000 (constant S_ .f32 0x3F800000#32))) (broadcastInDim S256 ![] bcast_S_S256 (constant S_ .f32 0x3F800000#32))))) := by
  fold_results; try rfl

theorem bias_read : StableHlo.after hostOps2_2 v (Proc.devRef .tc main_v84) = shapeCast S1x6 (v (Proc.devRef .tc main_arg9)) shapeCasts_S6_S1x6 := by
  fold_results; try rfl

/-! The three lines together. -/

theorem after_pool : StableHlo.after hostOps2_2 (StableHlo.after hostOps2_1 (StableHlo.after hostOps2 v)) (Proc.devRef .tc main_v83)
    = Cert.Stage.pool (F := Ideal) (Cert.Stage.pass64 (F := Ideal) (v (Proc.devRef .tc main_v3)) (v (Proc.devRef .tc main_v6)) (v (Proc.devRef .tc main_v31)) (v (Proc.devRef .tc main_v54)))
        (v (Proc.devRef .tc main_arg7)) (v (Proc.devRef .tc main_arg2)) := by
  refine (mean_read _).trans ?_
  rw [relu_read, relu_keep_main_arg2, second_pass, second_keep_main_arg2]
  rfl

theorem after_bias : StableHlo.after hostOps2_2 (StableHlo.after hostOps2_1 (StableHlo.after hostOps2 v)) (Proc.devRef .tc main_v84) = shapeCast S1x6 (v (Proc.devRef .tc main_arg9)) shapeCasts_S6_S1x6 := by
  refine (bias_read _).trans ?_
  rw [relu_keep_main_arg9, second_keep_main_arg9]

theorem after_keep_main_arg8 : StableHlo.after hostOps2_2 (StableHlo.after hostOps2_1 (StableHlo.after hostOps2 v)) (Proc.devRef .tc main_arg8) = v (Proc.devRef .tc main_arg8) :=
  (StableHlo.after_of_forall_not_mem (b := (Proc.devRef .tc main_arg8)) _ _ (List.forall_iff_forall_mem.mp (by
      simp only [hostOps2_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg8)) _ _ (List.forall_iff_forall_mem.mp (by
      simp only [hostOps2_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
   ((StableHlo.after_of_forall_not_mem (b := (Proc.devRef .tc main_arg8)) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))))

end Cert.KernelIdeal.Stretch

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.Region0.lean ====
/-
  The first kernel region: the embedding table times the first weight matrix, in twenty blocks of 5000 rows.

  At grid point `t` the body reads rows `5000·t … 5000·t + 4999` of the table and the whole weight matrix, and writes
  their product into the same rows of the result. Entry `(p, q)` of a block's product is the sum over `k` of the
  block's `(p, k)` times the weight's `(k, q)`, and the block's `(p, k)` is the table's `(5000·t + p, k)`: so the
  result array ends holding the product of the whole table with the weight matrix.
-/
import proofs.«133287_j24592982737431_2_alg».proof.Proof.Gen.KernelIdeal.Frame
import proofs.«133287_j24592982737431_2_alg».proof.Proof.Stage
import proofs.«133287_j24592982737431_2_alg».proof.Proof.LibPlainProduct
import proofs.«133287_j24592982737431_2_alg».proof.Proof.LibRepeat
import Idealize.ShloMosaic.Lib.Pipeline.Value
import Idealize.ShloMosaic.Lib.ValueIdx
import Idealize.ShloMosaic.Lib.KernelVsHost

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the sum over the contracted coordinate. -/
theorem payload_apply (x0 : Vec Ideal S5000x300 .f32) (x1 : Vec Ideal S300x128 .f32) (y : S5000x128.Idx) :
    k0_pay1 x0 x1 y = ∑ k : Fin 300, x0 (ix2 (y 0 : Fin 5000) k) * x1 (ix2 k (y 1 : Fin 128)) := by
  conv_lhs => rw [eq_ix2 y]
  unfold k0_pay1
  exact Cert.PlainProduct.matmul_plain_apply dot_S5000x300_S300x128_S5000x128_1_0_0_1_n_n rfl none _ _ (y 0) (y 1)

/-- The block indices over the grid: the table's and the result's row blocks move with the point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point `t` is rows `5000·t …` of the table. -/
theorem table_block (c : Dev nD) (t : Fin cfg0.N) (y : S5000x300.Idx) (i : S100000x300.Idx)
    (h0 : (i 0).val = 5000 * t.val + (y 0).val) (h1 : (i 1).val = (y 1).val) :
    (iblk0 V c 0 t : Vec Ideal S5000x300 .f32) y = (V c main_arg3 : S100000x300.Idx → Ideal .f32) i := by
  obtain ⟨e0, e1, -⟩ := idx_facts t
  unfold iblk0
  rw [View.read_apply]
  show V c main_arg3 _ = V c main_arg3 _
  congr 1
  funext a
  apply Fin.ext
  match a with
  | ⟨0, _⟩ => show win0_0.index t 0 * 5000 + 1 * (y 0).val = (i 0).val; rw [e0, h0]; omega
  | ⟨1, _⟩ => show win0_0.index t 1 * 300 + 1 * (y 1).val = (i 1).val; rw [e1, h1]; omega

/-- The weight's block at every point is the whole weight matrix. -/
theorem weight_block (c : Dev nD) (t : Fin cfg0.N) (y : S300x128.Idx) :
    (iblk0 V c 1 t : Vec Ideal S300x128 .f32) y = (V c main_arg4 : S300x128.Idx → Ideal .f32) y := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t 0 * 300 + 1 * (y 0).val = (y 0).val; rw [e2]; omega
  | ⟨1, _⟩ => show win0_1.index t 1 * 128 + 1 * (y 1).val = (y 1).val; rw [e3]; omega

/-- What point `t` writes back is block `t` of the whole product. -/
theorem flushed_eq (c : Dev nD) (t : Fin cfg0.N) :
    (dat0 V c).flushed 2 t = ((cfg0.win 2).blk t).view.read (Elt Ideal) (Cert.Stage.project (F := Ideal) (V c main_arg3) (V c main_arg4)) := by
  show (cfg0.win 2).cut (grid0.coords t) ((dat0 V c).after 2 t) = _
  rw [after0_2]
  unfold out0_2
  rw [View.canon_unit_zero hz]
  simp only [View.ld_unit_zero (S := S5000x300) hz, View.ld_unit_zero (S := S300x128) hz]
  obtain ⟨-, -, -, -, e4, e5⟩ := idx_facts t
  have ht : t.val < 20 := by have := t.isLt; have hN : cfg0.N = 20 := N_0; omega
  funext j
  show k0_pay1 (iblk0 V c 0 t) (iblk0 V c 1 t) j
    = Cert.Stage.project (F := Ideal) (V c main_arg3) (V c main_arg4) (((cfg0.win 2).blk t).view.emb j)
  have hj0 : (j 0).val < 5000 := (j 0).isLt
  have hj1 : (j 1).val < 128 := (j 1).isLt
  have hr : ((cfg0.win 2).blk t).view.emb j
      = ix2 (⟨5000 * t.val + (j 0).val, by omega⟩ : Fin 100000) (⟨(j 1).val, hj1⟩ : Fin 128) := by
    funext a
    apply Fin.ext
    match a with
    | ⟨0, _⟩ => show win0_2.index t 0 * 5000 + 1 * (j 0).val = 5000 * t.val + (j 0).val; rw [e4]; omega
    | ⟨1, _⟩ => show win0_2.index t 1 * 128 + 1 * (j 1).val = (j 1).val; rw [e5]; omega
  rw [hr]
  unfold Cert.Stage.project
  rw [Cert.PlainProduct.dotGeneral_plain_apply' Cert.ReferenceIdeal.dot_S100000x300_S300x128_S100000x128_1_0_0_1_n_n rfl]
  refine (payload_apply _ _ j).trans (Finset.sum_congr rfl fun k _ => ?_)
  rw [table_block V c t (ix2 (j 0) k) (ix2 (⟨5000 * t.val + (j 0).val, by omega⟩ : Fin 100000) k) rfl rfl,
    weight_block V c t (ix2 k (j 1))]
  rfl

/-- The result array after the region: the product of the whole table with the weight matrix. -/
theorem final (c : Dev nD) :
    (dat0 V c).arrAt 2 cfg0.N = Cert.Stage.project (F := Ideal) (V c main_arg3) (V c main_arg4) :=
  (dat0 V c).arrAt_eq_of_cover 2 _ (fun t _ => flushed_eq V c t) fun i => by
    have hi0 : (i 0).val < 100000 := (i 0).isLt
    have hi1 : (i 1).val < 128 := (i 1).isLt
    have hN : cfg0.N = 20 := N_0
    have hlt : (i 0).val / 5000 < cfg0.N := by rw [hN]; omega
    obtain ⟨-, -, -, -, e4, e5⟩ := idx_facts ⟨(i 0).val / 5000, hlt⟩
    refine ⟨⟨(i 0).val / 5000, hlt⟩, flush0_2 _, ?_⟩
    show i ∈ ((View.whole main_v32).slice (win0_2.rect ⟨(i 0).val / 5000, hlt⟩)).set
    rw [View.set_slice_whole, Rect.mem_set_unit]
    intro a
    match a with
    | ⟨0, _⟩ =>
      show win0_2.index _ 0 * 5000 ≤ (i 0).val ∧ (i 0).val < win0_2.index _ 0 * 5000 + 5000
      rw [e4]; show (i 0).val / 5000 * 5000 ≤ (i 0).val ∧ (i 0).val < (i 0).val / 5000 * 5000 + 5000; omega
    | ⟨1, _⟩ =>
      show win0_2.index _ 1 * 128 ≤ (i 1).val ∧ (i 1).val < win0_2.index _ 1 * 128 + 128
      rw [e5]; omega

end Cert.KernelIdeal.Region0

end
-- ==== Proof.Region1.lean ====
/-
  The second kernel region: the first layer's bias and clip and the second linear map, in twenty blocks of 5000 rows.

  At grid point `t` the body reads rows `5000·t … 5000·t + 4999` of the aggregated features, the bias row and the whole
  weight matrix; it adds the bias row to every row of the block, clips at zero, and multiplies by the weight. Entry
  `(p, q)` of what it writes is the sum over `k` of `max (block (p, k) + bias (0, k), 0) · W (k, q)`, and the block's
  `(p, k)` is the array's `(5000·t + p, k)`: the result array ends holding the same expression of the whole array.
-/
import proofs.«133287_j24592982737431_2_alg».proof.Proof.Gen.KernelIdeal.Frame
import proofs.«133287_j24592982737431_2_alg».proof.Proof.Stage
import proofs.«133287_j24592982737431_2_alg».proof.Proof.LibPlainProduct
import proofs.«133287_j24592982737431_2_alg».proof.Proof.LibRepeat
import Idealize.ShloMosaic.Lib.Pipeline.Value
import Idealize.ShloMosaic.Lib.ValueIdx
import Idealize.ShloMosaic.Lib.KernelVsHost

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second layer on whole arrays, at an entry. -/
theorem layer2_apply (a : S100000x128.Idx → Ideal .f32) (brow : S1x128.Idx → Ideal .f32) (W : S128x64.Idx → Ideal .f32)
    (r : Fin 100000) (q : Fin 64) :
    Cert.Stage.layer2 (F := Ideal) a brow W (ix2 r q)
      = ∑ k : Fin 128, max (a (ix2 r k) + brow (ix2 (0 : Fin 1) k)) (Scalar.ofBits (F := Ideal) .f32 0x00000000#32) * W (ix2 k q) := by
  unfold Cert.Stage.layer2 Cert.Stage.biasRelu128
  rw [Cert.PlainProduct.dotGeneral_plain_apply' Cert.ReferenceIdeal.dot_S100000x128_S128x64_S100000x64_1_0_0_1_n_n rfl]
  refine Finset.sum_congr rfl fun k _ => ?_
  congr 1
  show max (a (ix2 r k) + broadcastInDim _ ![0, 1] _ brow (ix2 r k)) _ = _
  rw [broadcastInDim_oneRow_apply]
  rfl

/-- The body's value at an entry of its block. -/
theorem payload_apply (x0 : Vec Ideal S5000x128 .f32) (x1 : Vec Ideal S1x128 .f32) (x2 : Vec Ideal S128x64 .f32) (y : S5000x64.Idx) :
    k1_pay1 x0 x1 x2 y
      = ∑ k : Fin 128, max (x0 (ix2 (y 0 : Fin 5000) k) + x1 (ix2 (0 : Fin 1) k)) (Scalar.ofBits (F := Ideal) .f32 0x00000000#32) * x2 (ix2 k (y 1 : Fin 64)) := by
  conv_lhs => rw [eq_ix2 y]
  unfold k1_pay1
  refine (Cert.PlainProduct.matmul_plain_apply dot_S5000x128_S128x64_S5000x64_1_0_0_1_n_n rfl none _ _ (y 0) (y 1)).trans ?_
  refine Finset.sum_congr rfl fun k _ => ?_
  congr 1
  have hb := Cert.Lib.Repeat.rowRepeat_apply (m := 5000) (n := 128) x1 broadcasts_S1x128_S5000x128 (y 0) k
  show max (shapeCast S5000x128 x0 _ (ix2 (y 0) k) + broadcastTo S5000x128 (shapeCast S1x128 (shapeCast S1x128 x1 _) _) _ (ix2 (y 0) k)) _ = _
  rw [shapeCast_self, shapeCast_self, shapeCast_self]
  rw [show broadcastTo S5000x128 x1 broadcasts_S1x128_S5000x128 (ix2 (y 0) k) = x1 (ix2 (0 : Fin 1) k) from hb]
  rfl

/-- The block indices over the grid: the features' and the result's row blocks move with the point, the rest stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point `t` is rows `5000·t …` of the array. -/
theorem rows_block (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v52 : S100000x128.Idx → Ideal .f32) i := by
  obtain ⟨e0, e1, -⟩ := idx_facts t
  unfold iblk1
  rw [View.read_apply]
  show V c main_v52 _ = V c main_v52 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The bias row's block at every point is the whole row. -/
theorem bias_block (c : Dev nD) (t : Fin cfg1.N) (y : S1x128.Idx) :
    (iblk1 V c 1 t : Vec Ideal S1x128 .f32) y = (V c main_v53 : S1x128.Idx → Ideal .f32) y := by
  obtain ⟨-, -, e2, e3, -⟩ := idx_facts t
  unfold iblk1
  rw [View.read_apply]
  show V c main_v53 _ = V c main_v53 _
  congr 1
  funext a
  apply Fin.ext
  match a with
  | ⟨0, _⟩ => show win1_1.index t 0 * 1 + 1 * (y 0).val = (y 0).val; rw [e2]; omega
  | ⟨1, _⟩ => show win1_1.index t 1 * 128 + 1 * (y 1).val = (y 1).val; rw [e3]; omega

/-- The weight's block at every point is the whole weight matrix. -/
theorem weight_block (c : Dev nD) (t : Fin cfg1.N) (y : S128x64.Idx) :
    (iblk1 V c 2 t : Vec Ideal S128x64 .f32) y = (V c main_arg6 : S128x64.Idx → Ideal .f32) y := by
  obtain ⟨-, -, -, -, e4, e5, -⟩ := idx_facts t
  unfold iblk1
  rw [View.read_apply]
  show V c main_arg6 _ = V c main_arg6 _
  congr 1
  funext a
  apply Fin.ext
  match a with
  | ⟨0, _⟩ => show win1_2.index t 0 * 128 + 1 * (y 0).val = (y 0).val; rw [e4]; omega
  | ⟨1, _⟩ => show win1_2.index t 1 * 64 + 1 * (y 1).val = (y 1).val; rw [e5]; omega

/-- What point `t` writes back is block `t` of the second layer of the whole arrays. -/
theorem flushed_eq (c : Dev nD) (t : Fin cfg1.N) :
    (dat1 V c).flushed 3 t = ((cfg1.win 3).blk t).view.read (Elt Ideal)
      (Cert.Stage.layer2 (F := Ideal) (V c main_v52) (V c main_v53) (V c main_arg6)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  obtain ⟨-, -, -, -, -, -, e6, e7⟩ := idx_facts t
  have ht : t.val < 20 := by have := t.isLt; have hN : cfg1.N = 20 := N_1; omega
  funext j
  show k1_pay1 (iblk1 V c 0 t) (iblk1 V c 1 t) (iblk1 V c 2 t) j
    = Cert.Stage.layer2 (F := Ideal) (V c main_v52) (V c main_v53) (V c main_arg6) (((cfg1.win 3).blk t).view.emb j)
  have hj0 : (j 0).val < 5000 := (j 0).isLt
  have hj1 : (j 1).val < 64 := (j 1).isLt
  have hr : ((cfg1.win 3).blk t).view.emb j
      = ix2 (⟨5000 * t.val + (j 0).val, by omega⟩ : Fin 100000) (⟨(j 1).val, hj1⟩ : Fin 64) := by
    funext a
    apply Fin.ext
    match a with
    | ⟨0, _⟩ => show win1_3.index t 0 * 5000 + 1 * (j 0).val = 5000 * t.val + (j 0).val; rw [e6]; omega
    | ⟨1, _⟩ => show win1_3.index t 1 * 64 + 1 * (j 1).val = (j 1).val; rw [e7]; omega
  rw [hr, layer2_apply]
  refine (payload_apply _ _ _ j).trans (Finset.sum_congr rfl fun k _ => ?_)
  rw [rows_block V c t (ix2 (j 0) k) (ix2 (⟨5000 * t.val + (j 0).val, by omega⟩ : Fin 100000) k) rfl rfl,
    bias_block V c t (ix2 (0 : Fin 1) k), weight_block V c t (ix2 k (j 1))]
  rfl

/-- The result array after the region: the second layer of the whole arrays. -/
theorem final (c : Dev nD) :
    (dat1 V c).arrAt 3 cfg1.N = Cert.Stage.layer2 (F := Ideal) (V c main_v52) (V c main_v53) (V c main_arg6) :=
  (dat1 V c).arrAt_eq_of_cover 3 _ (fun t _ => flushed_eq V c t) fun i => by
    have hi0 : (i 0).val < 100000 := (i 0).isLt
    have hi1 : (i 1).val < 64 := (i 1).isLt
    have hN : cfg1.N = 20 := N_1
    have hlt : (i 0).val / 5000 < cfg1.N := by rw [hN]; omega
    obtain ⟨-, -, -, -, -, -, e6, e7⟩ := idx_facts ⟨(i 0).val / 5000, hlt⟩
    refine ⟨⟨(i 0).val / 5000, hlt⟩, flush1_3 _, ?_⟩
    show i ∈ ((View.whole main_v54).slice (win1_3.rect ⟨(i 0).val / 5000, hlt⟩)).set
    rw [View.set_slice_whole, Rect.mem_set_unit]
    intro a
    match a with
    | ⟨0, _⟩ =>
      show win1_3.index _ 0 * 5000 ≤ (i 0).val ∧ (i 0).val < win1_3.index _ 0 * 5000 + 5000
      rw [e6]; show (i 0).val / 5000 * 5000 ≤ (i 0).val ∧ (i 0).val < (i 0).val / 5000 * 5000 + 5000; omega
    | ⟨1, _⟩ =>
      show win1_3.index _ 1 * 64 ≤ (i 1).val ∧ (i 1).val < win1_3.index _ 1 * 64 + 64
      rw [e7]; omega

end Cert.KernelIdeal.Region1

end
-- ==== Proof.LibBiasRow.lean ====
/-
  A bias vector as one row, and one row laid along every row of a matrix, in a kernel's spelling and in the host's.

  A kernel reshapes a vector `[n]` into one row `[1, n]` and repeats that row down `m` rows with a vector broadcast;
  the host broadcasts the vector into `[1, n]` along axis 1 and that row into `[m, n]` along axes 0 and 1. Entry
  `(0, q)` of the row is entry `q` of the vector either way, and entry `(p, q)` of the matrix is entry `(0, q)` of the
  row either way: the two spellings are the same arrays.
-/
import Idealize.ShloMosaic.Lib.Pipeline.Value
import Idealize.ShloMosaic.Lib.ValueIdx
import Idealize.ShloMosaic.Lib.KernelVsHost

namespace Cert.Lib.BiasRow

open Idealize.ShloMosaic Idealize.ShloMosaic.ValueIdx

variable {α : Type} {m n : Nat}

/-- A vector reshaped into one row is the vector broadcast into one row along axis 1. -/
theorem row_of_vector (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  obtain ⟨p, q, rfl⟩ : ∃ (p : Fin 1) (q : Fin n), i = ix2 p q := ⟨i 0, i 1, eq_ix2 i⟩
  have e2 := shapeCast_apply b h1 (ix2 p q) (ix1 q) (by
    rw [Shape.rowMajor_val_two, Shape.rowMajor_val_one]
    have hp : p.val = 0 := by omega
    show q.val = p.val * n + q.val
    rw [hp]; omega)
  have e3 := broadcastInDim_apply ![1] hd b (ix2 p q) (ix1 q) (by
    intro a
    match a with
    | ⟨0, _⟩ =>
      show q.val = if n = 1 then 0 else q.val
      split
      · have := q.isLt; omega
      · rfl)
  exact e2.trans e3.symm

/-- One row repeated down `m` rows, as a kernel's vector broadcast and as the host's broadcast along axes 0 and 1. -/
theorem row_repeat (x : (⟨2, ![1, n]⟩ : Shape).Idx → α)
    (hb : (⟨2, ![1, n]⟩ : Shape).Broadcasts ⟨2, ![m, n]⟩) (hd : (⟨2, ![1, n]⟩ : Shape).BroadcastsInDim ⟨2, ![m, n]⟩ ![0, 1]) :
    broadcastTo ⟨2, ![m, n]⟩ x hb = broadcastInDim ⟨2, ![m, n]⟩ ![0, 1] hd x := by
  funext i
  obtain ⟨p, q, rfl⟩ : ∃ (p : Fin m) (q : Fin n), i = ix2 p q := ⟨i 0, i 1, eq_ix2 i⟩
  have e1 := broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)
  exact e1.trans (broadcastInDim_oneRow_apply hd x p q).symm

end Cert.Lib.BiasRow
-- ==== Proof.Region2.lean ====
/-
  The third kernel region: the last linear map, its bias row and the clip at zero, on whole arrays in one grid point.

  The body reads the pooled features `[256, 64]`, the weight `[64, 6]` and the bias row `[1, 6]`, and writes
  `max (pooled · W + bias, 0)`: entry `(p, q)` is `max (∑ k, pooled (p, k) · W (k, q) + bias (0, q), 0)`. The one block
  is the whole result array.
-/
import proofs.«133287_j24592982737431_2_alg».proof.Proof.Gen.KernelIdeal.Frame
import proofs.«133287_j24592982737431_2_alg».proof.Proof.Stage
import proofs.«133287_j24592982737431_2_alg».proof.Proof.LibPlainProduct
import proofs.«133287_j24592982737431_2_alg».proof.Proof.LibRepeat
import proofs.«133287_j24592982737431_2_alg».proof.Proof.LibBiasRow
import Idealize.ShloMosaic.Lib.Pipeline.Value
import Idealize.ShloMosaic.Lib.ValueIdx
import Idealize.ShloMosaic.Lib.KernelVsHost

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value is the last layer of the blocks it loads: a product into a zero accumulator is the plain product,
    the bias row repeated down the rows is its broadcast, and the splat of zero is the broadcast of the zero constant. -/
theorem payload_eq (x0 : Vec Ideal S256x64 .f32) (x1 : Vec Ideal S64x6 .f32) (x2 : Vec Ideal S1x6 .f32) :
    k2_pay1 x0 x1 x2 = Cert.Stage.head (F := Ideal) x0 x1 x2 := by
  unfold k2_pay1 Cert.Stage.head
  dsimp only
  rw [shapeCast_self, shapeCast_self, shapeCast_self, matmul_zero_eq_dotGeneral,
    Cert.Lib.BiasRow.row_repeat x2 broadcasts_S1x6_S256x6 Cert.ReferenceIdeal.Gen.bcast_S1x6_S256x6_0_1]
  rfl

/-- The block indices at the one grid point: every window's block is its whole array. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem pooled_block (c : Dev nD) (t : Fin cfg2.N) (y : S256x64.Idx) :
    (iblk2 V c 0 t : Vec Ideal S256x64 .f32) y = (V c main_v83 : S256x64.Idx → Ideal .f32) y := by
  obtain ⟨e0, e1, -⟩ := idx_facts t
  unfold iblk2
  rw [View.read_apply]
  show V c main_v83 _ = V c main_v83 _
  congr 1
  funext a
  apply Fin.ext
  match a with
  | ⟨0, _⟩ => show win2_0.index t 0 * 256 + 1 * (y 0).val = (y 0).val; rw [e0]; omega
  | ⟨1, _⟩ => show win2_0.index t 1 * 64 + 1 * (y 1).val = (y 1).val; rw [e1]; omega

theorem weight_block (c : Dev nD) (t : Fin cfg2.N) (y : S64x6.Idx) :
    (iblk2 V c 1 t : Vec Ideal S64x6 .f32) y = (V c main_arg8 : S64x6.Idx → Ideal .f32) y := by
  obtain ⟨-, -, e2, e3, -⟩ := idx_facts t
  unfold iblk2
  rw [View.read_apply]
  show V c main_arg8 _ = V c main_arg8 _
  congr 1
  funext a
  apply Fin.ext
  match a with
  | ⟨0, _⟩ => show win2_1.index t 0 * 64 + 1 * (y 0).val = (y 0).val; rw [e2]; omega
  | ⟨1, _⟩ => show win2_1.index t 1 * 6 + 1 * (y 1).val = (y 1).val; rw [e3]; omega

theorem bias_block (c : Dev nD) (t : Fin cfg2.N) (y : S1x6.Idx) :
    (iblk2 V c 2 t : Vec Ideal S1x6 .f32) y = (V c main_v84 : S1x6.Idx → Ideal .f32) y := by
  obtain ⟨-, -, -, -, e4, e5, -⟩ := idx_facts t
  unfold iblk2
  rw [View.read_apply]
  show V c main_v84 _ = V c main_v84 _
  congr 1
  funext a
  apply Fin.ext
  match a with
  | ⟨0, _⟩ => show win2_2.index t 0 * 1 + 1 * (y 0).val = (y 0).val; rw [e4]; omega
  | ⟨1, _⟩ => show win2_2.index t 1 * 6 + 1 * (y 1).val = (y 1).val; rw [e5]; omega

/-- What the one point writes back is the last layer of the whole arrays. -/
theorem flushed_eq (c : Dev nD) (t : Fin cfg2.N) :
    (dat2 V c).flushed 3 t = ((cfg2.win 3).blk t).view.read (Elt Ideal)
      (Cert.Stage.head (F := Ideal) (V c main_v83) (V c main_arg8) (V c main_v84)) := by
  show (cfg2.win 3).cut (grid2.coords t) ((dat2 V c).after 3 t) = _
  rw [after2_3]
  unfold out2_3
  rw [View.canon_unit_zero hz]
  simp only [View.ld_unit_zero (S := S256x64) hz, View.ld_unit_zero (S := S64x6) hz, View.ld_unit_zero (S := S1x6) hz]
  obtain ⟨-, -, -, -, -, -, e6, e7⟩ := idx_facts t
  have h0 : (iblk2 V c 0 t : Vec Ideal S256x64 .f32) = (V c main_v83 : S256x64.Idx → Ideal .f32) := funext (pooled_block V c t)
  have h1 : (iblk2 V c 1 t : Vec Ideal S64x6 .f32) = (V c main_arg8 : S64x6.Idx → Ideal .f32) := funext (weight_block V c t)
  have h2 : (iblk2 V c 2 t : Vec Ideal S1x6 .f32) = (V c main_v84 : S1x6.Idx → Ideal .f32) := funext (bias_block V c t)
  funext j
  show k2_pay1 (iblk2 V c 0 t) (iblk2 V c 1 t) (iblk2 V c 2 t) j
    = Cert.Stage.head (F := Ideal) (V c main_v83) (V c main_arg8) (V c main_v84) (((cfg2.win 3).blk t).view.emb j)
  have hr : ((cfg2.win 3).blk t).view.emb j = j := by
    funext a
    apply Fin.ext
    match a with
    | ⟨0, _⟩ => show win2_3.index t 0 * 256 + 1 * (j 0).val = (j 0).val; rw [e6]; omega
    | ⟨1, _⟩ => show win2_3.index t 1 * 6 + 1 * (j 1).val = (j 1).val; rw [e7]; omega
  rw [hr, h0, h1, h2, payload_eq]

/-- The result array after the region: the last layer of the whole arrays. -/
theorem final (c : Dev nD) :
    (dat2 V c).arrAt 3 cfg2.N = Cert.Stage.head (F := Ideal) (V c main_v83) (V c main_arg8) (V c main_v84) :=
  (dat2 V c).arrAt_eq_of_cover 3 _ (fun t _ => flushed_eq V c t) fun i => by
    have hi0 : (i 0).val < 256 := (i 0).isLt
    have hi1 : (i 1).val < 6 := (i 1).isLt
    have hN : cfg2.N = 1 := N_2
    have hlt : 0 < cfg2.N := by rw [hN]; omega
    obtain ⟨-, -, -, -, -, -, e6, e7⟩ := idx_facts ⟨0, hlt⟩
    refine ⟨⟨0, hlt⟩, flush2_3 _, ?_⟩
    show i ∈ ((View.whole main_v85).slice (win2_3.rect ⟨0, hlt⟩)).set
    rw [View.set_slice_whole, Rect.mem_set_unit]
    intro a
    match a with
    | ⟨0, _⟩ =>
      show win2_3.index _ 0 * 256 ≤ (i 0).val ∧ (i 0).val < win2_3.index _ 0 * 256 + 256
      rw [e6]; omega
    | ⟨1, _⟩ =>
      show win2_3.index _ 1 * 6 ≤ (i 1).val ∧ (i 1).val < win2_3.index _ 1 * 6 + 6
      rw [e7]; omega

end Cert.KernelIdeal.Region2

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.Bridge.lean ====
/-
  The place where the kernel's arrangement of the network differs from the reference's in substance.

  The kernel multiplies the whole table by the first weight matrix and looks the product's rows up at the nodes'
  indices; the reference looks the table's rows up first and multiplies afterwards. Row `e` of either is the row of the
  table that index `e` names, contracted with the weight: entry `(e, q)` is the sum over `k` of
  `table (row e, k) · W (k, q)` on both sides, term by term the same, so no law of arithmetic is used.
-/
import proofs.«133287_j24592982737431_2_alg».proof.Proof.Gen.KernelIdeal
import proofs.«133287_j24592982737431_2_alg».proof.Proof.Stage
import proofs.«133287_j24592982737431_2_alg».proof.Proof.LibPlainProduct
import proofs.«133287_j24592982737431_2_alg».proof.Proof.LibAggregate
import Idealize.ShloMosaic.Lib.Pipeline.Value
import Idealize.ShloMosaic.Lib.ValueIdx

noncomputable section

namespace Cert.Bridge

open Idealize.ShloMosaic Idealize.ShloMosaic.ValueIdx

/-- Looking the projected table up at the nodes' indices is projecting the looked-up rows. -/
theorem lookup_project (x : (⟨Cert.ReferenceIdeal.S100000, .i32⟩ : BufTy).Contents (Elt Ideal))
    (emb : (⟨Cert.ReferenceIdeal.S100000x300, .f32⟩ : BufTy).Contents (Elt Ideal))
    (W1 : (⟨Cert.ReferenceIdeal.S300x128, .f32⟩ : BufTy).Contents (Elt Ideal)) :
    Host.gather Cert.KernelIdeal.gather_S100000x128_S100000x1_S100000x128_1_0_n_n_0_1_1128
        (Cert.Stage.project (F := Ideal) emb W1) (Cert.Stage.wrapNodes (F := Ideal) x)
      = Cert.Stage.embed (F := Ideal) x emb W1 := by
  funext i
  obtain ⟨e, q, rfl⟩ : ∃ (e : Fin 100000) (q : Fin 128), i = ix2 e q := ⟨i 0, i 1, eq_ix2 i⟩
  refine (Cert.Aggregate.gather_rows_apply (N := 100000) (R := 100000) (C := 128) (by decide)
    Cert.KernelIdeal.Gen.gather_S100000x128_S100000x1_S100000x128_1_0_n_n_0_1_1128_wf
    (Cert.Stage.project (F := Ideal) emb W1) (Cert.Stage.wrapNodes (F := Ideal) x) e q).trans ?_
  unfold Cert.Stage.project Cert.Stage.embed
  rw [Cert.PlainProduct.dotGeneral_plain_apply' Cert.ReferenceIdeal.dot_S100000x300_S300x128_S100000x128_1_0_0_1_n_n rfl,
    Cert.PlainProduct.dotGeneral_plain_apply' Cert.ReferenceIdeal.dot_S100000x300_S300x128_S100000x128_1_0_0_1_n_n rfl]
  refine Finset.sum_congr rfl fun k _ => ?_
  congr 1
  exact (Cert.Aggregate.gather_rows_apply (N := 100000) (R := 100000) (C := 300) (by decide)
    Cert.ReferenceIdeal.Gen.gather_S100000x300_S100000x1_S100000x300_1_0_n_n_0_1_1300_wf
    emb (Cert.Stage.wrapNodes (F := Ideal) x) e k).symm

end Cert.Bridge

end
-- ==== Proof.Chain.lean ====
/-
  The kernel program's result as one function of its arguments: the buffer contents followed through the program.

  The run's buffer contents at each boundary are a fold: a host stretch maps the contents before it to the contents after
  it, a kernel region replaces its result array by what its write-backs leave and keeps every other buffer. Reading the
  fold at the buffers that matter, boundary by boundary: the edge lists and weights are computed before the first region
  and never written again; the first region leaves the projected table; the next stretch looks its rows up at the nodes
  and passes messages once; the second region applies the first bias, the clip and the second linear map; the last
  stretch passes messages again and pools; the third region applies the last linear map, its bias and the clip.
-/
import proofs.«133287_j24592982737431_2_alg».proof.Proof.Gen.KernelIdeal.Frame
import proofs.«133287_j24592982737431_2_alg».proof.Proof.Stage
import proofs.«133287_j24592982737431_2_alg».proof.Proof.Stretch
import proofs.«133287_j24592982737431_2_alg».proof.Proof.Region0
import proofs.«133287_j24592982737431_2_alg».proof.Proof.Region1
import proofs.«133287_j24592982737431_2_alg».proof.Proof.Region2
import proofs.«133287_j24592982737431_2_alg».proof.Proof.Bridge
import proofs.«133287_j24592982737431_2_alg».proof.Proof.LibBiasRow

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## At the first region's entry -/

theorem W3_row (c : Dev nD) : W3 m ρ c (Proc.devRef .tc main_v3) = Cert.Stage.rowOf (F := Ideal) (m ((c : Thread nD τ).loc main_arg1)) := Stretch.before_row (W0 m ρ c)
theorem W3_col (c : Dev nD) : W3 m ρ c (Proc.devRef .tc main_v6) = Cert.Stage.colOf (F := Ideal) (m ((c : Thread nD τ).loc main_arg1)) := Stretch.before_col (W0 m ρ c)
theorem W3_norm (c : Dev nD) : W3 m ρ c (Proc.devRef .tc main_v31) = Cert.Stage.normOf (F := Ideal) (Cert.Stage.rowOf (F := Ideal) (m ((c : Thread nD τ).loc main_arg1))) (Cert.Stage.colOf (F := Ideal) (m ((c : Thread nD τ).loc main_arg1))) := Stretch.before_norm (W0 m ρ c)
theorem W3_main_arg0 (c : Dev nD) : W3 m ρ c (Proc.devRef .tc main_arg0) = m ((c : Thread nD τ).loc main_arg0) := Stretch.before_keep_main_arg0 (W0 m ρ c)
theorem W3_main_arg2 (c : Dev nD) : W3 m ρ c (Proc.devRef .tc main_arg2) = m ((c : Thread nD τ).loc main_arg2) := Stretch.before_keep_main_arg2 (W0 m ρ c)
theorem W3_main_arg3 (c : Dev nD) : W3 m ρ c (Proc.devRef .tc main_arg3) = m ((c : Thread nD τ).loc main_arg3) := Stretch.before_keep_main_arg3 (W0 m ρ c)
theorem W3_main_arg4 (c : Dev nD) : W3 m ρ c (Proc.devRef .tc main_arg4) = m ((c : Thread nD τ).loc main_arg4) := Stretch.before_keep_main_arg4 (W0 m ρ c)
theorem W3_main_arg5 (c : Dev nD) : W3 m ρ c (Proc.devRef .tc main_arg5) = m ((c : Thread nD τ).loc main_arg5) := Stretch.before_keep_main_arg5 (W0 m ρ c)
theorem W3_main_arg6 (c : Dev nD) : W3 m ρ c (Proc.devRef .tc main_arg6) = m ((c : Thread nD τ).loc main_arg6) := Stretch.before_keep_main_arg6 (W0 m ρ c)
theorem W3_main_arg7 (c : Dev nD) : W3 m ρ c (Proc.devRef .tc main_arg7) = m ((c : Thread nD τ).loc main_arg7) := Stretch.before_keep_main_arg7 (W0 m ρ c)
theorem W3_main_arg8 (c : Dev nD) : W3 m ρ c (Proc.devRef .tc main_arg8) = m ((c : Thread nD τ).loc main_arg8) := Stretch.before_keep_main_arg8 (W0 m ρ c)
theorem W3_main_arg9 (c : Dev nD) : W3 m ρ c (Proc.devRef .tc main_arg9) = m ((c : Thread nD τ).loc main_arg9) := Stretch.before_keep_main_arg9 (W0 m ρ c)

/-! ## At the first region's exit -/

theorem W4_table (c : Dev nD) : W4 m ρ c (Proc.devRef .tc main_v32) = Cert.Stage.project (F := Ideal) (m ((c : Thread nD τ).loc main_arg3)) (m ((c : Thread nD τ).loc main_arg4)) := by
  refine (W4_arr m ρ c 2).trans ((Region0.final (V3 m ρ) c).trans ?_)
  rw [show V3 m ρ c main_arg3 = m ((c : Thread nD τ).loc main_arg3) from W3_main_arg3 m ρ c, show V3 m ρ c main_arg4 = m ((c : Thread nD τ).loc main_arg4) from W3_main_arg4 m ρ c]
theorem W4_main_arg0 (c : Dev nD) : W4 m ρ c (Proc.devRef .tc main_arg0) = m ((c : Thread nD τ).loc main_arg0) := (W4_of_ne m ρ c main_arg0 (by decide)).trans (W3_main_arg0 m ρ c)
theorem W4_main_arg5 (c : Dev nD) : W4 m ρ c (Proc.devRef .tc main_arg5) = m ((c : Thread nD τ).loc main_arg5) := (W4_of_ne m ρ c main_arg5 (by decide)).trans (W3_main_arg5 m ρ c)
theorem W4_main_v3 (c : Dev nD) : W4 m ρ c (Proc.devRef .tc main_v3) = Cert.Stage.rowOf (F := Ideal) (m ((c : Thread nD τ).loc main_arg1)) := (W4_of_ne m ρ c main_v3 (by decide)).trans (W3_row m ρ c)
theorem W4_main_v6 (c : Dev nD) : W4 m ρ c (Proc.devRef .tc main_v6) = Cert.Stage.colOf (F := Ideal) (m ((c : Thread nD τ).loc main_arg1)) := (W4_of_ne m ρ c main_v6 (by decide)).trans (W3_col m ρ c)
theorem W4_main_v31 (c : Dev nD) : W4 m ρ c (Proc.devRef .tc main_v31) = Cert.Stage.normOf (F := Ideal) (Cert.Stage.rowOf (F := Ideal) (m ((c : Thread nD τ).loc main_arg1))) (Cert.Stage.colOf (F := Ideal) (m ((c : Thread nD τ).loc main_arg1))) := (W4_of_ne m ρ c main_v31 (by decide)).trans (W3_norm m ρ c)
theorem W4_main_arg6 (c : Dev nD) : W4 m ρ c (Proc.devRef .tc main_arg6) = m ((c : Thread nD τ).loc main_arg6) := (W4_of_ne m ρ c main_arg6 (by decide)).trans (W3_main_arg6 m ρ c)
theorem W4_main_arg7 (c : Dev nD) : W4 m ρ c (Proc.devRef .tc main_arg7) = m ((c : Thread nD τ).loc main_arg7) := (W4_of_ne m ρ c main_arg7 (by decide)).trans (W3_main_arg7 m ρ c)
theorem W4_main_arg2 (c : Dev nD) : W4 m ρ c (Proc.devRef .tc main_arg2) = m ((c : Thread nD τ).loc main_arg2) := (W4_of_ne m ρ c main_arg2 (by decide)).trans (W3_main_arg2 m ρ c)
theorem W4_main_arg9 (c : Dev nD) : W4 m ρ c (Proc.devRef .tc main_arg9) = m ((c : Thread nD τ).loc main_arg9) := (W4_of_ne m ρ c main_arg9 (by decide)).trans (W3_main_arg9 m ρ c)
theorem W4_main_arg8 (c : Dev nD) : W4 m ρ c (Proc.devRef .tc main_arg8) = m ((c : Thread nD τ).loc main_arg8) := (W4_of_ne m ρ c main_arg8 (by decide)).trans (W3_main_arg8 m ρ c)

/-! ## At the second region's entry -/

theorem W5_agg (c : Dev nD) : W5 m ρ c (Proc.devRef .tc main_v52) = Cert.Stage.pass128 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Host.gather gather_S100000x128_S100000x1_S100000x128_1_0_n_n_0_1_1128 (Cert.Stage.project (F := Ideal) (m ((c : Thread nD τ).loc main_arg3)) (m ((c : Thread nD τ).loc main_arg4))) (Cert.Stage.wrapNodes (F := Ideal) (m ((c : Thread nD τ).loc main_arg0)))) := by
  refine (Stretch.between_agg (W4 m ρ c)).trans ?_
  rw [W4_main_v3 m ρ c, W4_main_v6 m ρ c, W4_main_v31 m ρ c, W4_table m ρ c, W4_main_arg0 m ρ c]

theorem W5_bias (c : Dev nD) : W5 m ρ c (Proc.devRef .tc main_v53) = shapeCast S1x128 (m ((c : Thread nD τ).loc main_arg5)) shapeCasts_S128_S1x128 := by
  refine (Stretch.between_bias (W4 m ρ c)).trans ?_
  rw [W4_main_arg5 m ρ c]
theorem W5_main_arg6 (c : Dev nD) : W5 m ρ c (Proc.devRef .tc main_arg6) = m ((c : Thread nD τ).loc main_arg6) := (Stretch.between_keep_main_arg6 (W4 m ρ c)).trans (W4_main_arg6 m ρ c)
theorem W5_main_v3 (c : Dev nD) : W5 m ρ c (Proc.devRef .tc main_v3) = Cert.Stage.rowOf (F := Ideal) (m ((c : Thread nD τ).loc main_arg1)) := (Stretch.between_keep_main_v3 (W4 m ρ c)).trans (W4_main_v3 m ρ c)
theorem W5_main_v6 (c : Dev nD) : W5 m ρ c (Proc.devRef .tc main_v6) = Cert.Stage.colOf (F := Ideal) (m ((c : Thread nD τ).loc main_arg1)) := (Stretch.between_keep_main_v6 (W4 m ρ c)).trans (W4_main_v6 m ρ c)
theorem W5_main_v31 (c : Dev nD) : W5 m ρ c (Proc.devRef .tc main_v31) = Cert.Stage.normOf (F := Ideal) (Cert.Stage.rowOf (F := Ideal) (m ((c : Thread nD τ).loc main_arg1))) (Cert.Stage.colOf (F := Ideal) (m ((c : Thread nD τ).loc main_arg1))) := (Stretch.between_keep_main_v31 (W4 m ρ c)).trans (W4_main_v31 m ρ c)
theorem W5_main_arg7 (c : Dev nD) : W5 m ρ c (Proc.devRef .tc main_arg7) = m ((c : Thread nD τ).loc main_arg7) := (Stretch.between_keep_main_arg7 (W4 m ρ c)).trans (W4_main_arg7 m ρ c)
theorem W5_main_arg2 (c : Dev nD) : W5 m ρ c (Proc.devRef .tc main_arg2) = m ((c : Thread nD τ).loc main_arg2) := (Stretch.between_keep_main_arg2 (W4 m ρ c)).trans (W4_main_arg2 m ρ c)
theorem W5_main_arg9 (c : Dev nD) : W5 m ρ c (Proc.devRef .tc main_arg9) = m ((c : Thread nD τ).loc main_arg9) := (Stretch.between_keep_main_arg9 (W4 m ρ c)).trans (W4_main_arg9 m ρ c)
theorem W5_main_arg8 (c : Dev nD) : W5 m ρ c (Proc.devRef .tc main_arg8) = m ((c : Thread nD τ).loc main_arg8) := (Stretch.between_keep_main_arg8 (W4 m ρ c)).trans (W4_main_arg8 m ρ c)

/-! ## At the second region's exit -/

theorem W6_hidden (c : Dev nD) : W6 m ρ c (Proc.devRef .tc main_v54) = Cert.Stage.layer2 (F := Ideal) (Cert.Stage.pass128 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Host.gather gather_S100000x128_S100000x1_S100000x128_1_0_n_n_0_1_1128 (Cert.Stage.project (F := Ideal) (m ((c : Thread nD τ).loc main_arg3)) (m ((c : Thread nD τ).loc main_arg4))) (Cert.Stage.wrapNodes (F := Ideal) (m ((c : Thread nD τ).loc main_arg0))))) (shapeCast S1x128 (m ((c : Thread nD τ).loc main_arg5)) shapeCasts_S128_S1x128) (m ((c : Thread nD τ).loc main_arg6)) := by
  refine (W6_arr m ρ c 3).trans ((Region1.final (V5 m ρ) c).trans ?_)
  rw [show V5 m ρ c main_v52 = _ from W5_agg m ρ c, show V5 m ρ c main_v53 = _ from W5_bias m ρ c, show V5 m ρ c main_arg6 = _ from W5_main_arg6 m ρ c]
theorem W6_main_v3 (c : Dev nD) : W6 m ρ c (Proc.devRef .tc main_v3) = Cert.Stage.rowOf (F := Ideal) (m ((c : Thread nD τ).loc main_arg1)) := (W6_of_ne m ρ c main_v3 (by decide)).trans (W5_main_v3 m ρ c)
theorem W6_main_v6 (c : Dev nD) : W6 m ρ c (Proc.devRef .tc main_v6) = Cert.Stage.colOf (F := Ideal) (m ((c : Thread nD τ).loc main_arg1)) := (W6_of_ne m ρ c main_v6 (by decide)).trans (W5_main_v6 m ρ c)
theorem W6_main_v31 (c : Dev nD) : W6 m ρ c (Proc.devRef .tc main_v31) = Cert.Stage.normOf (F := Ideal) (Cert.Stage.rowOf (F := Ideal) (m ((c : Thread nD τ).loc main_arg1))) (Cert.Stage.colOf (F := Ideal) (m ((c : Thread nD τ).loc main_arg1))) := (W6_of_ne m ρ c main_v31 (by decide)).trans (W5_main_v31 m ρ c)
theorem W6_main_arg7 (c : Dev nD) : W6 m ρ c (Proc.devRef .tc main_arg7) = m ((c : Thread nD τ).loc main_arg7) := (W6_of_ne m ρ c main_arg7 (by decide)).trans (W5_main_arg7 m ρ c)
theorem W6_main_arg2 (c : Dev nD) : W6 m ρ c (Proc.devRef .tc main_arg2) = m ((c : Thread nD τ).loc main_arg2) := (W6_of_ne m ρ c main_arg2 (by decide)).trans (W5_main_arg2 m ρ c)
theorem W6_main_arg9 (c : Dev nD) : W6 m ρ c (Proc.devRef .tc main_arg9) = m ((c : Thread nD τ).loc main_arg9) := (W6_of_ne m ρ c main_arg9 (by decide)).trans (W5_main_arg9 m ρ c)
theorem W6_main_arg8 (c : Dev nD) : W6 m ρ c (Proc.devRef .tc main_arg8) = m ((c : Thread nD τ).loc main_arg8) := (W6_of_ne m ρ c main_arg8 (by decide)).trans (W5_main_arg8 m ρ c)

/-! ## At the third region's entry, and the result -/

theorem W9_pool (c : Dev nD) : W9 m ρ c (Proc.devRef .tc main_v83) = Cert.Stage.pool (F := Ideal) (Cert.Stage.pass64 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Cert.Stage.layer2 (F := Ideal) (Cert.Stage.pass128 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Host.gather gather_S100000x128_S100000x1_S100000x128_1_0_n_n_0_1_1128 (Cert.Stage.project (F := Ideal) (m ((c : Thread nD τ).loc main_arg3)) (m ((c : Thread nD τ).loc main_arg4))) (Cert.Stage.wrapNodes (F := Ideal) (m ((c : Thread nD τ).loc main_arg0))))) (shapeCast S1x128 (m ((c : Thread nD τ).loc main_arg5)) shapeCasts_S128_S1x128) (m ((c : Thread nD τ).loc main_arg6)))) (m ((c : Thread nD τ).loc main_arg7)) (m ((c : Thread nD τ).loc main_arg2)) := by
  refine (Stretch.after_pool (W6 m ρ c)).trans ?_
  rw [W6_main_v3 m ρ c, W6_main_v6 m ρ c, W6_main_v31 m ρ c, W6_hidden m ρ c, W6_main_arg7 m ρ c, W6_main_arg2 m ρ c]

theorem W9_bias (c : Dev nD) : W9 m ρ c (Proc.devRef .tc main_v84) = shapeCast S1x6 (m ((c : Thread nD τ).loc main_arg9)) shapeCasts_S6_S1x6 := by
  refine (Stretch.after_bias (W6 m ρ c)).trans ?_
  rw [W6_main_arg9 m ρ c]

theorem W9_main_arg8 (c : Dev nD) : W9 m ρ c (Proc.devRef .tc main_arg8) = m ((c : Thread nD τ).loc main_arg8) :=
  (Stretch.after_keep_main_arg8 (W6 m ρ c)).trans (W6_main_arg8 m ρ c)

/-- The result buffer after the run, as the stages composed in the kernel's order. -/
def kernelNet (c : Dev nD) : (⟨S256x6, .f32⟩ : BufTy).Contents (Elt Ideal) := Cert.Stage.head (F := Ideal) (Cert.Stage.pool (F := Ideal) (Cert.Stage.pass64 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Cert.Stage.layer2 (F := Ideal) (Cert.Stage.pass128 (F := Ideal) (Cert.Stage.rowOf (F := Ideal) (m ((c : Thread nD τ).loc main_arg1))) (Cert.Stage.colOf (F := Ideal) (m ((c : Thread nD τ).loc main_arg1))) (Cert.Stage.normOf (F := Ideal) (Cert.Stage.rowOf (F := Ideal) (m ((c : Thread nD τ).loc main_arg1))) (Cert.Stage.colOf (F := Ideal) (m ((c : Thread nD τ).loc main_arg1)))) (Host.gather gather_S100000x128_S100000x1_S100000x128_1_0_n_n_0_1_1128 (Cert.Stage.project (F := Ideal) (m ((c : Thread nD τ).loc main_arg3)) (m ((c : Thread nD τ).loc main_arg4))) (Cert.Stage.wrapNodes (F := Ideal) (m ((c : Thread nD τ).loc main_arg0))))) (shapeCast S1x128 (m ((c : Thread nD τ).loc main_arg5)) shapeCasts_S128_S1x128) (m ((c : Thread nD τ).loc main_arg6)))) (m ((c : Thread nD τ).loc main_arg7)) (m ((c : Thread nD τ).loc main_arg2))) (m ((c : Thread nD τ).loc main_arg8)) (shapeCast S1x6 (m ((c : Thread nD τ).loc main_arg9)) shapeCasts_S6_S1x6)

theorem result (c : Dev nD) : W10 m ρ c (Proc.devRef .tc main_v85) = kernelNet m c := by
  refine (W10_arr m ρ c 3).trans ((Region2.final (V9 m ρ) c).trans ?_)
  rw [show V9 m ρ c main_v83 = _ from W9_pool m ρ c, show V9 m ρ c main_arg8 = _ from W9_main_arg8 m ρ c, show V9 m ρ c main_v84 = _ from W9_bias m ρ c]
  rfl

/-- The kernel's arrangement of the stages is the network: the lookup commutes with the first linear map, and a bias
    vector reshaped into a row is the vector broadcast into a row. -/
theorem kernelNet_eq (c : Dev nD) :
    kernelNet m c = Cert.Stage.net (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  unfold kernelNet Cert.Stage.net
  rw [Cert.Bridge.lookup_project (m ((c : Thread nD τ).loc main_arg0)) (m ((c : Thread nD τ).loc main_arg3)) (m ((c : Thread nD τ).loc main_arg4)),
    Cert.Lib.BiasRow.row_of_vector (n := 128) (m ((c : Thread nD τ).loc main_arg5)) shapeCasts_S128_S1x128 Cert.ReferenceIdeal.Gen.bcast_S128_S1x128_1,
    Cert.Lib.BiasRow.row_of_vector (n := 6) (m ((c : Thread nD τ).loc main_arg9)) shapeCasts_S6_S1x6 Cert.ReferenceIdeal.Gen.bcast_S6_S1x6_1]

end Cert.KernelIdeal.Chain

end
-- ==== Proof.lean ====
/-
  The certificate: the kernel program, its idealization and the idealized reference all run and leave their arguments
  unchanged; the idealization rewrote nothing; and at the extended reals the idealized kernel and the idealized
  reference end with the same result.

  Both programs compute one network on a graph of 100000 nodes (see Proof/Stage.lean). The kernel program computes the
  three dense layers in three kernel regions tiled over rows, and looks the embedding up AFTER its linear map; the
  reference computes everything on the host and looks the embedding up BEFORE its linear map. Row `e` of either is the
  table's row at index `e` contracted with the weight, term by term the same sum, so the two agree on every input,
  finite or not: the precondition is not used.

  The kernel's run: the frame run with the result buffer kept (Proof/FrameKept.lean), the buffer contents followed
  through the program (Proof/Stretch.lean, Proof/Region0–2.lean, Proof/Chain.lean). The reference's run:
  Proof/RefRun.lean, its term folded into the stages in Proof/RefSide.lean. The bridge: Proof/Bridge.lean.
-/
import proofs.«133287_j24592982737431_2_alg».proof.Defs
import proofs.«133287_j24592982737431_2_alg».proof.Proof.Gen.Kernel
import proofs.«133287_j24592982737431_2_alg».proof.Proof.Gen.Kernel.Skeleton
import proofs.«133287_j24592982737431_2_alg».proof.Proof.Gen.Kernel.Launch
import proofs.«133287_j24592982737431_2_alg».proof.Proof.Gen.Kernel.Points
import proofs.«133287_j24592982737431_2_alg».proof.Proof.Gen.Kernel.Frame
import proofs.«133287_j24592982737431_2_alg».proof.Proof.Gen.KernelIdeal
import proofs.«133287_j24592982737431_2_alg».proof.Proof.Gen.KernelIdeal.Skeleton
import proofs.«133287_j24592982737431_2_alg».proof.Proof.Gen.KernelIdeal.Launch
import proofs.«133287_j24592982737431_2_alg».proof.Proof.Gen.KernelIdeal.Points
import proofs.«133287_j24592982737431_2_alg».proof.Proof.Gen.KernelIdeal.Frame
import proofs.«133287_j24592982737431_2_alg».proof.Proof.Gen.ReferenceIdeal
import proofs.«133287_j24592982737431_2_alg».proof.Proof.Gen.Pre_finite_inputs
import proofs.«133287_j24592982737431_2_alg».proof.Proof.FrameKept
import proofs.«133287_j24592982737431_2_alg».proof.Proof.RefRun
import proofs.«133287_j24592982737431_2_alg».proof.Proof.RefSide
import proofs.«133287_j24592982737431_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both runs end at the network of the (agreeing) arguments. -/
theorem algebraic : Cert.algebraic_KernelIdeal_ReferenceIdeal := by
  intro m ρ m' ρ' _ hagree
  refine ⟨fun c => Cert.KernelIdeal.Chain.kernelNet m c, ?_, ?_⟩
  · exact (θ_run Cert.KernelIdeal.defs _ _).mono
      (fun _ h c => ⟨(h c).1.trans (Cert.KernelIdeal.Chain.result m ρ c), (h c).2⟩)
      (Cert.KernelIdeal.GenP.frame_kept m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9⟩ := hagree c
    rw [Cert.ReferenceIdeal.RefValue.result_eq_net, h0, h1, h2, h3, h4, h5, h6, h7, h8, h9]
    exact (Cert.KernelIdeal.Chain.kernelNet_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
